-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x1024 : Shape := ⟨3, ![8, 512, 1024]⟩
abbrev S1024x128 : Shape := ⟨2, ![1024, 128]⟩
abbrev S128x32000 : Shape := ⟨2, ![128, 32000]⟩
abbrev S_ : Shape := ⟨0, ![]⟩

class Facts : Prop where
  bcast_S_S8x512x1024 : S_.BroadcastsInDim S8x512x1024 (![] : Fin 0 → Fin S8x512x1024.rank)
  reducesTo_S8x512x1024_S_d0_1_2 : S8x512x1024.ReducesTo [0, 1, 2] S_
  h_S_ : 0 < S_.numel
  bcast_S_S1024x128 : S_.BroadcastsInDim S1024x128 (![] : Fin 0 → Fin S1024x128.rank)
  reducesTo_S1024x128_S_d0_1 : S1024x128.ReducesTo [0, 1] S_
  bcast_S_S128x32000 : S_.BroadcastsInDim S128x32000 (![] : Fin 0 → Fin S128x32000.rank)
  reducesTo_S128x32000_S_d0_1 : S128x32000.ReducesTo [0, 1] S_

variable [Facts]

def fn {F : FTy → Type} [FloatOps F] (main_arg0 : FVec F S8x512x1024 .f32) (main_arg1 : FVec F S1024x128 .f32) (main_arg2 : FVec F S128x32000 .f32) : IVec S_ 1 :=
  let main_v0 : FVec F S8x512x1024 .f32 := Host.absf main_arg0
  let main_cst : FVec F S_ .f32 := constant S_ .f32 0x7F800000#32
  let main_v1 : FVec F S8x512x1024 .f32 := broadcastInDim S8x512x1024 ![] bcast_S_S8x512x1024 main_cst
  let main_v2 : IVec S8x512x1024 1 := cmpf .olt main_v0 main_v1
  let main_c : IVec S_ 1 := constantI S_ 1 1#1
  let main_v3 : IVec S_ 1 := (fun x v => Host.reduce IntOp.andi x v reducesTo_S8x512x1024_S_d0_1_2 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S128x32000 .f32 := Host.absf main_arg2
  let main_cst_2 : FVec F S_ .f32 := constant S_ .f32 0x7F800000#32
  let main_v10 : FVec F S128x32000 .f32 := broadcastInDim S128x32000 ![] bcast_S_S128x32000 main_cst_2
  let main_v11 : IVec S128x32000 1 := cmpf .olt main_v9 main_v10
  let main_c_3 : IVec S_ 1 := constantI S_ 1 1#1
  let main_v12 : IVec S_ 1 := (fun x v => Host.reduce IntOp.andi x v reducesTo_S128x32000_S_d0_1 h_S_) main_v11 main_c_3
  let main_v13 : IVec S_ 1 := andi main_v8 main_v12
  main_v13
-- ==== Kernel.lean ====
abbrev S8x512x1024 : Shape := ⟨3, ![8, 512, 1024]⟩
abbrev S1024x128 : Shape := ⟨2, ![1024, 128]⟩
abbrev S128x32000 : Shape := ⟨2, ![128, 32000]⟩
abbrev S4096x1024 : Shape := ⟨2, ![4096, 1024]⟩
abbrev S4096x128 : Shape := ⟨2, ![4096, 128]⟩
abbrev S2048x1024 : Shape := ⟨2, ![2048, 1024]⟩
abbrev S2048x128 : Shape := ⟨2, ![2048, 128]⟩
abbrev S4096x32000 : Shape := ⟨2, ![4096, 32000]⟩
abbrev S128x640 : Shape := ⟨2, ![128, 640]⟩
abbrev S4096x640 : Shape := ⟨2, ![4096, 640]⟩
abbrev S8x512x32000 : Shape := ⟨3, ![8, 512, 32000]⟩

abbrev nBuf : Space → Nat
  | .hbm => 7
  | .vmem => 10
  | .smem => 0
  | _ => 0

abbrev bufTy : (tb : Table) → Fin (tcTables nBuf tb) → BufTy
  | .hbm, ⟨0, _⟩ => ⟨S8x512x1024, .f32⟩
  | .hbm, ⟨1, _⟩ => ⟨S1024x128, .f32⟩
  | .hbm, ⟨2, _⟩ => ⟨S128x32000, .f32⟩
  | .hbm, ⟨3, _⟩ => ⟨S4096x1024, .f32⟩
  | .hbm, ⟨4, _⟩ => ⟨S4096x128, .bf16⟩
  | .hbm, ⟨5, _⟩ => ⟨S4096x32000, .f32⟩
  | .hbm, ⟨6, _⟩ => ⟨S8x512x32000, .f32⟩
  | .local _ .vmem, ⟨0, _⟩ => ⟨S2048x1024, .f32⟩
  | .local _ .vmem, ⟨1, _⟩ => ⟨S2048x1024, .f32⟩
  | .local _ .vmem, ⟨2, _⟩ => ⟨S1024x128, .f32⟩
  | .local _ .vmem, ⟨3, _⟩ => ⟨S2048x128, .bf16⟩
  | .local _ .vmem, ⟨4, _⟩ => ⟨S2048x128, .bf16⟩
  | .local _ .vmem, ⟨5, _⟩ => ⟨S4096x128, .bf16⟩
  | .local _ .vmem, ⟨6, _⟩ => ⟨S128x640, .f32⟩
  | .local _ .vmem, ⟨7, _⟩ => ⟨S128x640, .f32⟩
  | .local _ .vmem, ⟨8, _⟩ => ⟨S4096x640, .f32⟩
  | .local _ .vmem, ⟨9, _⟩ => ⟨S4096x640, .f32⟩
  | _, _ => ⟨S8x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S4096x128 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S128x640 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x640 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S8x512x1024_S4096x1024 : S8x512x1024.ShapeCasts S4096x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  inb_S2048x128_S2048x128_0_0 : ∀ a, (![0, 0] : Fin 2 → Nat) a + S2048x128.size a ≤ S2048x128.size a
  h_S2048x128 : 0 < S2048x128.numel
  packedbf16_S2048x128_S2048x128_0_0 : (Rect.unit (s := S2048x128) ![0, 0] S2048x128.size inb_S2048x128_S2048x128_0_0).PackedRows (EltTy.packing .bf16)
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x640_S128x640_0_0 : ∀ a, (![0, 0] : Fin 2 → Nat) a + S128x640.size a ≤ S128x640.size a
  h_S128x640 : 0 < S128x640.numel
  inb_S4096x640_S4096x640_0_0 : ∀ a, (![0, 0] : Fin 2 → Nat) a + S4096x640.size a ≤ S4096x640.size a
  h_S4096x640 : 0 < S4096x640.numel
  shapeCasts_S4096x32000_S8x512x32000 : S4096x32000.ShapeCasts S8x512x32000
  dot_S2048x1024_S1024x128_S2048x128_1_0_0_1_n_n_wf : DotDims.WF S2048x1024 S1024x128 S2048x128 [1] [0] [0] [1] [] []
  dot_S4096x128_S128x640_S4096x640_1_0_0_1_n_n_wf : DotDims.WF S4096x128 S128x640 S4096x640 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S4096x1024.size a
  hwx0_0 : ∀ i : grid0.Coords, EltTy.bits .f32 = 32 ∨ (Rect.block (s := S4096x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .f32 = 32 ∨ (Rect.block (s := S1024x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S4096x128.size a
  hwx0_2 : ∀ i : grid0.Coords, EltTy.bits .bf16 = 32 ∨ (Rect.block (s := S4096x128) S2048x128.size (cc0_transform_2 i) (hinb0_2 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S4096x128.size a
  hwx1_0 : ∀ i : grid1.Coords, EltTy.bits .bf16 = 32 ∨ (Rect.block (s := S4096x128) S4096x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x640.size a ≤ S128x32000.size a
  hwx1_1 : ∀ i : grid1.Coords, EltTy.bits .f32 = 32 ∨ (Rect.block (s := S128x32000) S128x640.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x640.size a ≤ S4096x32000.size a
  hwx1_2 : ∀ i : grid1.Coords, EltTy.bits .f32 = 32 ∨ (Rect.block (s := S4096x32000) S4096x640.size (cc1_transform_2 i) (hinb1_2 i)).WholeWords (EltTy.packing .f32)

variable [Facts₀]

def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf
def dot_S4096x128_S128x640_S4096x640_1_0_0_1_n_n : DotDims S4096x128 S128x640 S4096x640 where
  lhsContracting := [1]
  rhsContracting := [0]
  lhsNonContracting := [0]
  rhsNonContracting := [1]
  lhsBatch := []
  rhsBatch := []
  wf := dot_S4096x128_S128x640_S4096x640_1_0_0_1_n_n_wf

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S4096x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S128x640.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S4096x640.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8x512x1024 : Shape := ⟨3, ![8, 512, 1024]⟩
abbrev S1024x128 : Shape := ⟨2, ![1024, 128]⟩
abbrev S128x32000 : Shape := ⟨2, ![128, 32000]⟩
abbrev S4096x1024 : Shape := ⟨2, ![4096, 1024]⟩
abbrev S4096x32000 : Shape := ⟨2, ![4096, 32000]⟩
abbrev S1024x1024 : Shape := ⟨2, ![1024, 1024]⟩
abbrev S128x640 : Shape := ⟨2, ![128, 640]⟩
abbrev S1024x640 : Shape := ⟨2, ![1024, 640]⟩
abbrev S8x512x32000 : Shape := ⟨3, ![8, 512, 32000]⟩

abbrev nBuf : Space → Nat
  | .hbm => 6
  | .vmem => 8
  | .smem => 0
  | _ => 0

abbrev bufTy : (tb : Table) → Fin (tcTables nBuf tb) → BufTy
  | .hbm, ⟨0, _⟩ => ⟨S8x512x1024, .f32⟩
  | .hbm, ⟨1, _⟩ => ⟨S1024x128, .f32⟩
  | .hbm, ⟨2, _⟩ => ⟨S128x32000, .f32⟩
  | .hbm, ⟨3, _⟩ => ⟨S4096x1024, .f32⟩
  | .hbm, ⟨4, _⟩ => ⟨S4096x32000, .f32⟩
  | .hbm, ⟨5, _⟩ => ⟨S8x512x32000, .f32⟩
  | .local _ .vmem, ⟨0, _⟩ => ⟨S1024x1024, .f32⟩
  | .local _ .vmem, ⟨1, _⟩ => ⟨S1024x1024, .f32⟩
  | .local _ .vmem, ⟨2, _⟩ => ⟨S1024x128, .f32⟩
  | .local _ .vmem, ⟨3, _⟩ => ⟨S128x640, .f32⟩
  | .local _ .vmem, ⟨4, _⟩ => ⟨S128x640, .f32⟩
  | .local _ .vmem, ⟨5, _⟩ => ⟨S1024x640, .f32⟩
  | .local _ .vmem, ⟨6, _⟩ => ⟨S1024x640, .f32⟩
  | .local _ .vmem, ⟨7, _⟩ => ⟨S1024x128, .f32⟩
  | _, _ => ⟨S8x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 50], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S128x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S8x512x1024_S4096x1024 : S8x512x1024.ShapeCasts S4096x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x640_S128x640_0_0 : ∀ a, (![0, 0] : Fin 2 → Nat) a + S128x640.size a ≤ S128x640.size a
  h_S128x640 : 0 < S128x640.numel
  inb_S1024x640_S1024x640_0_0 : ∀ a, (![0, 0] : Fin 2 → Nat) a + S1024x640.size a ≤ S1024x640.size a
  h_S1024x640 : 0 < S1024x640.numel
  shapeCasts_S4096x32000_S8x512x32000 : S4096x32000.ShapeCasts S8x512x32000
  dot_S1024x1024_S1024x128_S1024x128_1_0_0_1_n_n_wf : DotDims.WF S1024x1024 S1024x128 S1024x128 [1] [0] [0] [1] [] []
  dot_S1024x128_S128x640_S1024x640_1_0_0_1_n_n_wf : DotDims.WF S1024x128 S128x640 S1024x640 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .f32 = 32 ∨ (Rect.block (s := S1024x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x640.size a ≤ S128x32000.size a
  hwx0_2 : ∀ i : grid0.Coords, EltTy.bits .f32 = 32 ∨ (Rect.block (s := S128x32000) S128x640.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x640.size a ≤ S4096x32000.size a
  hwx0_3 : ∀ i : grid0.Coords, EltTy.bits .f32 = 32 ∨ (Rect.block (s := S4096x32000) S1024x640.size (cc0_transform_3 i) (hinb0_3 i)).WholeWords (EltTy.packing .f32)

variable [Facts₀]

def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x128_S128x640_S1024x640_1_0_0_1_n_n : DotDims S1024x128 S128x640 S1024x640 where
  lhsContracting := [1]
  rhsContracting := [0]
  lhsNonContracting := [0]
  rhsNonContracting := [1]
  lhsBatch := []
  rhsBatch := []
  wf := dot_S1024x128_S128x640_S1024x640_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x640.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x640.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.Spec.lean ====
/-
  The function both programs compute, on the extended reals.

  The activations `x : [8, 512, 1024]` are read as `4096` rows of `1024` features; each row is sent through the
  bottleneck, `h = X · W_d` with `W_d : [1024, 128]`, and then to the vocabulary, `o = h · W_o` with
  `W_o : [128, 32000]`; the `4096` rows of logits are read back as `[8, 512, 32000]`.  No operation but sums of
  products occurs, and both programs associate the two products the same way, so nothing is asked of the inputs.

  An entry `(p, q)` of a product depends on row `p` of the left factor and column `q` of the right factor only
  (`mm_congr`): a block of rows times a block of columns is the corresponding block of the whole product.
-/
import proofs.«103452_g2000605752815823_pallasbulk_1286_7_alg».proof.Proof.LibDense

noncomputable section

open scoped BigOperators

namespace Cert.Spec

open Idealize.ShloMosaic Idealize.ShloMosaic.ValueIdx Cert.Dense

/-- An entry of a product depends on one row of the left factor and one column of the right factor. -/
theorem mm_congr {M M' K N N' : ℕ} (A : Mat M K) (A' : Mat M' K) (B : Mat K N) (B' : Mat K N')
    (i : (⟨2, ![M, N]⟩ : Shape).Idx) (i' : (⟨2, ![M', N']⟩ : Shape).Idx)
    (hA : ∀ k : Fin K, A' (ix2 (c0 i') k) = A (ix2 (c0 i) k))
    (hB : ∀ k : Fin K, B' (ix2 k (c1 i')) = B (ix2 k (c1 i))) :
    mm A' B' i' = mm A B i := by
  show ∑ k : Fin K, A' (ix2 (c0 i') k) * B' (ix2 k (c1 i')) = ∑ k : Fin K, A (ix2 (c0 i) k) * B (ix2 k (c1 i))
  exact Finset.sum_congr rfl fun k _ => by rw [hA k, hB k]

/-- The logits: the rows of `x` through the bottleneck and on to the vocabulary, read back in groups. -/
def logits (h1 : (⟨3, ![8, 512, 1024]⟩ : Shape).ShapeCasts ⟨2, ![4096, 1024]⟩)
    (h2 : (⟨2, ![4096, 32000]⟩ : Shape).ShapeCasts ⟨3, ![8, 512, 32000]⟩)
    (x : (⟨3, ![8, 512, 1024]⟩ : Shape).Idx → EReal) (wd : Mat 1024 128) (wo : Mat 128 32000) :
    (⟨3, ![8, 512, 32000]⟩ : Shape).Idx → EReal :=
  shapeCast ⟨3, ![8, 512, 32000]⟩ (mm (mm (shapeCast ⟨2, ![4096, 1024]⟩ x h1) wd) wo) h2

end Cert.Spec

end
-- ==== Proof.KernelBottleneck.lean ====
/-
  The kernel's first region: the bottleneck projection.

  The grid has two points; point `t` reads rows `2048 t … 2048 t + 2047` of the row matrix `X` and the whole of
  `W_d`, and writes the same rows of `h`.  What it writes is the product of its row block with `W_d` (the changes
  of float format are the identity on the extended reals, the accumulator starts at zero), which is the same
  rows of `X · W_d`; the two row blocks tile `h`, so the region leaves `h = X · W_d`.
-/
import proofs.«103452_g2000605752815823_pallasbulk_1286_7_alg».proof.Proof.Gen.KernelIdeal.Frame
import proofs.«103452_g2000605752815823_pallasbulk_1286_7_alg».proof.Proof.Spec

set_option maxRecDepth 16384

noncomputable section

namespace Cert.KernelIdeal.Bottleneck

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Dense Cert.Spec

variable (V : (c : Dev nD) → (b : Ref sig .tc) → Buf (Elt Ideal) ((c : Thread nD τ).loc b))

theorem hz : (![0, 0] : Fin 2 → Nat) = fun _ => 0 := funext fun a => by fin_cases a <;> rfl

/-- The body's stored value is the product of its two loaded blocks. -/
theorem pay_eq (x0 : Vec Ideal S2048x1024 .f32) (x1 : Vec Ideal S1024x128 .f32) :
    k0_pay1 (F := Ideal) x0 x1 = mm x0 x1 := by
  unfold k0_pay1
  rw [shapeCast_self]
  exact matmul_zero_eq_mm (φ₁ := .bf16) (φ₂ := .bf16) dot_S2048x1024_S1024x128_S2048x128_1_0_0_1_n_n rfl rfl rfl rfl rfl rfl none x0 x1

/-- The printed index maps over the two points: the row block moves with the point, everything else stays. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point `t` writes back is its block of `X · W_d`. -/
theorem flushed_eq (c : Dev nD) (t : Fin cfg0.N) :
    (dat0 V c).flushed 2 t = ((cfg0.win 2).blk t).view.read (Elt Ideal) (mm (V c main_v0) (V c main_arg1)) := by
  show (cfg0.win 2).cut (grid0.coords t) ((dat0 V c).after 2 t) = _
  rw [after0_2]
  unfold out0_2
  rw [View.canon_unit_zero hz]
  simp only [View.ld_unit_zero (S := S2048x1024) hz, View.ld_unit_zero (S := S1024x128) hz]
  rw [pay_eq]
  obtain ⟨e0, e1, e2, e3, e4, e5⟩ := idx_facts t
  funext j
  show mm (fun y => V c main_v0 (((cfg0.win 0).blk t).view.emb y)) (fun y => V c main_arg1 (((cfg0.win 1).blk t).view.emb y)) j
    = mm (V c main_v0) (V c main_arg1) (((cfg0.win 2).blk t).view.emb j)
  refine mm_congr _ _ _ _ _ _ (fun k => ?_) (fun k => ?_)
  · refine congrArg (V c main_v0) (funext fun a => Fin.ext ?_)
    match a with
    | ⟨0, _⟩ => show win0_0.index t (0 : Fin 2) * 2048 + 1 * (j 0).val = win0_2.index t (0 : Fin 2) * 2048 + 1 * (j 0).val; omega
    | ⟨1, _⟩ => show win0_0.index t (1 : Fin 2) * 1024 + 1 * k.val = k.val; omega
  · refine congrArg (V c main_arg1) (funext fun a => Fin.ext ?_)
    match a with
    | ⟨0, _⟩ => show win0_1.index t (0 : Fin 2) * 1024 + 1 * k.val = k.val; omega
    | ⟨1, _⟩ => show win0_1.index t (1 : Fin 2) * 128 + 1 * (j 1).val = win0_2.index t (1 : Fin 2) * 128 + 1 * (j 1).val; omega

/-- An index of `h` is in point `t`'s block iff each coordinate is in the block's range on its axis. -/
theorem mem_blk (t : Fin cfg0.N) (i : S4096x128.Idx) :
    i ∈ ((cfg0.win 2).blk t).view.set ↔ ∀ a : Fin 2, win0_2.index t a * S2048x128.size a ≤ (i a).val ∧ (i a).val < win0_2.index t a * S2048x128.size a + S2048x128.size a := by
  show i ∈ ((View.whole main_v1).slice (win0_2.rect t)).set ↔ _
  rw [View.set_slice_whole, Rect.mem_set_unit]
  exact Iff.rfl

/-- The two row blocks tile `h`. -/
theorem cover (i : S4096x128.Idx) :
    ∃ t : Fin cfg0.N, (cfg0.win 2).flush t = true ∧ i ∈ ((cfg0.win 2).blk t).view.set := by
  have hi0 : (i 0).val < 4096 := (i 0).isLt
  have hi1 : (i 1).val < 128 := (i 1).isLt
  have hN : cfg0.N = 2 := N_0
  let t : Fin cfg0.N := ⟨(i 0).val / 2048, by rw [hN]; omega⟩
  obtain ⟨e0, e1, e2, e3, e4, e5⟩ := idx_facts t
  have e4' : win0_2.index t (0 : Fin 2) = (i 0).val / 2048 := e4
  refine ⟨t, flush0_2 t, ?_⟩
  rw [mem_blk]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 128 ≤ (i 1).val ∧ (i 1).val < win0_2.index t (1 : Fin 2) * 128 + 128; omega

/-- After the region, `h = X · W_d` of the arrays the region found. -/
theorem final (c : Dev nD) : (dat0 V c).arrAt 2 cfg0.N = mm (V c main_v0) (V c main_arg1) :=
  (dat0 V c).arrAt_eq_of_cover 2 _ (fun t _ => flushed_eq V c t) cover

end Cert.KernelIdeal.Bottleneck

end
-- ==== Proof.KernelVocab.lean ====
/-
  The kernel's second region: the vocabulary projection.

  The grid has fifty points; point `t` reads the whole of `h` and columns `640 t … 640 t + 639` of `W_o`, and writes
  the same columns of the logits.  What it writes is the product of `h` with its column block, which is the same
  columns of `h · W_o`; the fifty column blocks tile the logits, so the region leaves `o = h · W_o`.
-/
import proofs.«103452_g2000605752815823_pallasbulk_1286_7_alg».proof.Proof.Gen.KernelIdeal.Frame
import proofs.«103452_g2000605752815823_pallasbulk_1286_7_alg».proof.Proof.Spec

set_option maxRecDepth 16384

noncomputable section

namespace Cert.KernelIdeal.Vocab

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Dense Cert.Spec

variable (V : (c : Dev nD) → (b : Ref sig .tc) → Buf (Elt Ideal) ((c : Thread nD τ).loc b))

theorem hz : (![0, 0] : Fin 2 → Nat) = fun _ => 0 := funext fun a => by fin_cases a <;> rfl

/-- The body's stored value is the product of its two loaded blocks. -/
theorem pay_eq (x0 : Vec Ideal S4096x128 .bf16) (x1 : Vec Ideal S128x640 .f32) :
    k1_pay1 (F := Ideal) x0 x1 = mm x0 x1 := by
  unfold k1_pay1
  rw [shapeCast_self]
  exact matmul_zero_eq_mm (φ₁ := .bf16) (φ₂ := .bf16) dot_S4096x128_S128x640_S4096x640_1_0_0_1_n_n rfl rfl rfl rfl rfl rfl none x0 x1

/-- The printed index maps over the fifty points: the column block moves with the point, everything else stays. -/
theorem idx_facts : ∀ t : Fin cfg1.N, win1_0.index t (0 : Fin 2) = 0
    ∧ win1_0.index t (1 : Fin 2) = 0
    ∧ win1_1.index t (0 : Fin 2) = 0
    ∧ win1_1.index t (1 : Fin 2) = t.val
    ∧ win1_2.index t (0 : Fin 2) = 0
    ∧ win1_2.index t (1 : Fin 2) = t.val :=
  (by decide +kernel : ∀ t : Fin grid1.N, _)

/-- What point `t` writes back is its block of `h · W_o`. -/
theorem flushed_eq (c : Dev nD) (t : Fin cfg1.N) :
    (dat1 V c).flushed 2 t = ((cfg1.win 2).blk t).view.read (Elt Ideal) (mm (V c main_v1) (V c main_arg2)) := by
  show (cfg1.win 2).cut (grid1.coords t) ((dat1 V c).after 2 t) = _
  rw [after1_2]
  unfold out1_2
  rw [View.canon_unit_zero hz]
  simp only [View.ld_unit_zero (S := S4096x128) hz, View.ld_unit_zero (S := S128x640) hz]
  rw [pay_eq]
  obtain ⟨e0, e1, e2, e3, e4, e5⟩ := idx_facts t
  funext j
  show mm (fun y => V c main_v1 (((cfg1.win 0).blk t).view.emb y)) (fun y => V c main_arg2 (((cfg1.win 1).blk t).view.emb y)) j
    = mm (V c main_v1) (V c main_arg2) (((cfg1.win 2).blk t).view.emb j)
  refine mm_congr _ _ _ _ _ _ (fun k => ?_) (fun k => ?_)
  · refine congrArg (V c main_v1) (funext fun a => Fin.ext ?_)
    match a with
    | ⟨0, _⟩ => show win1_0.index t (0 : Fin 2) * 4096 + 1 * (j 0).val = win1_2.index t (0 : Fin 2) * 4096 + 1 * (j 0).val; omega
    | ⟨1, _⟩ => show win1_0.index t (1 : Fin 2) * 128 + 1 * k.val = k.val; omega
  · refine congrArg (V c main_arg2) (funext fun a => Fin.ext ?_)
    match a with
    | ⟨0, _⟩ => show win1_1.index t (0 : Fin 2) * 128 + 1 * k.val = k.val; omega
    | ⟨1, _⟩ => show win1_1.index t (1 : Fin 2) * 640 + 1 * (j 1).val = win1_2.index t (1 : Fin 2) * 640 + 1 * (j 1).val; omega

/-- An index of the logits is in point `t`'s block iff each coordinate is in the block's range on its axis. -/
theorem mem_blk (t : Fin cfg1.N) (i : S4096x32000.Idx) :
    i ∈ ((cfg1.win 2).blk t).view.set ↔ ∀ a : Fin 2, win1_2.index t a * S4096x640.size a ≤ (i a).val ∧ (i a).val < win1_2.index t a * S4096x640.size a + S4096x640.size a := by
  show i ∈ ((View.whole main_v2).slice (win1_2.rect t)).set ↔ _
  rw [View.set_slice_whole, Rect.mem_set_unit]
  exact Iff.rfl

/-- The fifty column blocks tile the logits. -/
theorem cover (i : S4096x32000.Idx) :
    ∃ t : Fin cfg1.N, (cfg1.win 2).flush t = true ∧ i ∈ ((cfg1.win 2).blk t).view.set := by
  have hi0 : (i 0).val < 4096 := (i 0).isLt
  have hi1 : (i 1).val < 32000 := (i 1).isLt
  have hN : cfg1.N = 50 := N_1
  let t : Fin cfg1.N := ⟨(i 1).val / 640, by rw [hN]; omega⟩
  obtain ⟨e0, e1, e2, e3, e4, e5⟩ := idx_facts t
  have e5' : win1_2.index t (1 : Fin 2) = (i 1).val / 640 := e5
  refine ⟨t, flush1_2 t, ?_⟩
  rw [mem_blk]
  intro a
  match a with
  | ⟨0, _⟩ => show win1_2.index t (0 : Fin 2) * 4096 ≤ (i 0).val ∧ (i 0).val < win1_2.index t (0 : Fin 2) * 4096 + 4096; omega
  | ⟨1, _⟩ => show win1_2.index t (1 : Fin 2) * 640 ≤ (i 1).val ∧ (i 1).val < win1_2.index t (1 : Fin 2) * 640 + 640; omega

/-- After the region, the logits are `h · W_o` of the arrays the region found. -/
theorem final (c : Dev nD) : (dat1 V c).arrAt 2 cfg1.N = mm (V c main_v1) (V c main_arg2) :=
  (dat1 V c).arrAt_eq_of_cover 2 _ (fun t _ => flushed_eq V c t) cover

end Cert.KernelIdeal.Vocab

end
-- ==== Proof.KernelRun.lean ====
/-
  The kernel's whole run, read.

  @main is four segments: the activations are read as rows (`X`), the first region leaves `h = X · W_d`, the second
  leaves `o = h · W_o`, and the rows of `o` are read back in groups.  Following the buffer contents from the launch
  memory through the four segments, the result buffer ends at `Spec.logits` of the three argument arrays, which end
  as launched.
-/
import proofs.«103452_g2000605752815823_pallasbulk_1286_7_alg».proof.Proof.Gen.KernelIdeal.Frame
import proofs.«103452_g2000605752815823_pallasbulk_1286_7_alg».proof.Proof.KernelBottleneck
import proofs.«103452_g2000605752815823_pallasbulk_1286_7_alg».proof.Proof.KernelVocab
import Idealize.ShloMosaic.Lib.StableHlo.Run

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo
open Cert.KernelIdeal Cert.KernelIdeal.Gen Cert.Dense Cert.Spec

local notation "𝕄" => MT nD τ sig Unit (Elt Ideal) ℕ (UR sig nD τ) ℕ

variable (m : (ℓ : Loc nD τ sig) → Buf (Elt Ideal) ℓ) (ρ : Dev nD → PrngReg)

/-- The first region finds the activations read as rows. -/
theorem V1_rows (c : Dev nD) :
    V1 m ρ c main_v0 = shapeCast S4096x1024 (m ((c : Thread nD τ).loc main_arg0)) Facts₀.shapeCasts_S8x512x1024_S4096x1024 := by
  show StableHlo.after hostOps0 (W0 m ρ c) (Proc.devRef .tc main_v0) = _
  after_results
  rfl

/-- The first region finds `W_d` as launched. -/
theorem V1_wd (c : Dev nD) : V1 m ρ c main_arg1 = m ((c : Thread nD τ).loc main_arg1) := by
  show StableHlo.after hostOps0 (W0 m ρ c) (Proc.devRef .tc main_arg1) = _
  after_results

/-- The second region finds `h = X · W_d`. -/
theorem V2_h (c : Dev nD) :
    V2 m ρ c main_v1 = mm (shapeCast S4096x1024 (m ((c : Thread nD τ).loc main_arg0)) Facts₀.shapeCasts_S8x512x1024_S4096x1024)
      (m ((c : Thread nD τ).loc main_arg1)) := by
  refine (W2_arr m ρ c 2).trans ?_
  rw [Bottleneck.final (V1 m ρ) c, V1_rows, V1_wd]

/-- The second region finds `W_o` as launched. -/
theorem V2_wo (c : Dev nD) : V2 m ρ c main_arg2 = m ((c : Thread nD τ).loc main_arg2) := by
  refine (W2_of_ne m ρ c main_arg2 (by decide)).trans ?_
  show StableHlo.after hostOps0 (W0 m ρ c) (Proc.devRef .tc main_arg2) = _
  after_results

/-- The second region leaves the rows of logits. -/
theorem V3_o (c : Dev nD) :
    V3 m ρ c main_v2 = mm (mm (shapeCast S4096x1024 (m ((c : Thread nD τ).loc main_arg0)) Facts₀.shapeCasts_S8x512x1024_S4096x1024)
      (m ((c : Thread nD τ).loc main_arg1))) (m ((c : Thread nD τ).loc main_arg2)) := by
  refine (W3_arr m ρ c 2).trans ?_
  rw [Vocab.final (V2 m ρ) c, V2_h, V2_wo]

/-- The result buffer ends at the logits of the argument arrays. -/
theorem W4_result (c : Dev nD) :
    W4 m ρ c (Proc.devRef .tc main_v3) = logits Facts₀.shapeCasts_S8x512x1024_S4096x1024 Facts₀.shapeCasts_S4096x32000_S8x512x32000
      (m ((c : Thread nD τ).loc main_arg0)) (m ((c : Thread nD τ).loc main_arg1)) (m ((c : Thread nD τ).loc main_arg2)) := by
  show StableHlo.after hostOps2 (W3 m ρ c) (Proc.devRef .tc main_v3) = _
  after_results
  have e := V3_o m ρ c
  unfold logits
  rw [← e]
  rfl

set_option backward.isDefEq.respectTransparency.types false in
/-- Every weakly fair execution of @main terminates, nothing faulting, with the result buffer at the logits of the
    argument arrays and the argument arrays as launched. -/
theorem run : θ_run defs (onTc (τ := τ) (main (F := Ideal))) ⟨m, fun _ => 0, ρ⟩ (fun r => ∀ c : Dev nD,
      r.2.mem ((c.tc : Thread nD τ).loc main_v3) = logits Facts₀.shapeCasts_S8x512x1024_S4096x1024 Facts₀.shapeCasts_S4096x32000_S8x512x32000
        (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v3 (by decide))).trans (W4_result m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.KernelIdeal.Whole

end
-- ==== Proof.ReferenceFused.lean ====
/-
  The reference's one region: both products fused on a (row block) × (column block) grid.

  The grid has 4 × 50 points, the column block moving fastest.  Point `(r, s)` reads rows `1024 r … 1024 r + 1023` of
  the row matrix `X`, the whole of `W_d` and columns `640 s … 640 s + 639` of `W_o`.  At `s = 0` it stores the product of
  its row block with `W_d` in a scratch buffer that it carries through the rest of the row; at every point it writes
  the scratch times its column block of `W_o`.  Along a row the row block and `W_d` do not change, so the scratch is
  always the point's own rows of `X · W_d`, and what the point writes back is its block of `(X · W_d) · W_o`; the
  200 blocks tile the logits.
-/
import proofs.«103452_g2000605752815823_pallasbulk_1286_7_alg».proof.Proof.Gen.ReferenceIdeal.Frame
import proofs.«103452_g2000605752815823_pallasbulk_1286_7_alg».proof.Proof.Spec
import Idealize.ShloMosaic.Lib.Pipeline.Value
import Idealize.ShloMosaic.Lib.Tactic

set_option maxRecDepth 16384

noncomputable section

namespace Cert.ReferenceIdeal.Fused

open Idealize.ShloMosaic Idealize.ShloMosaic.TcCoe Idealize.ShloMosaic.ValueIdx Idealize.ShloMosaic.Tactic
open Idealize.SL.Sem
open Idealize.ShloMosaic.Pipeline (Dat Cfg Window)
open Cert.ReferenceIdeal Cert.ReferenceIdeal.Gen Cert.Dense Cert.Spec

theorem hz : (![0, 0] : Fin 2 → Nat) = fun _ => 0 := funext fun a => by fin_cases a <;> rfl

/-- The first stored value: the product of the row block with `W_d`. -/
theorem pay1_eq (x0 : Vec Ideal S1024x1024 .f32) (x1 : Vec Ideal S1024x128 .f32) :
    k0_pay1 (F := Ideal) x0 x1 = mm x0 x1 := by
  unfold k0_pay1
  simp only [shapeCast_self]
  exact matmul_zero_eq_mm (φ₁ := .f32) (φ₂ := .f32) dot_S1024x1024_S1024x128_S1024x128_1_0_0_1_n_n rfl rfl rfl rfl rfl rfl none x0 x1

/-- The second stored value: the product of the scratch with the column block of `W_o`. -/
theorem pay2_eq (x3 : Vec Ideal S1024x128 .f32) (x4 : Vec Ideal S128x640 .f32) :
    k0_pay2 (F := Ideal) x3 x4 = mm x3 x4 := by
  unfold k0_pay2
  exact matmul_zero_eq_mm (φ₁ := .f32) (φ₂ := .f32) dot_S1024x128_S128x640_S1024x640_1_0_0_1_n_n rfl rfl rfl rfl rfl rfl none x3 x4

/-- At the start of a row the scratch is left at the row block times `W_d`. -/
theorem scratch_A (c : Dev nD) (i : grid0.Coords) (a2 : Memref sig .tc .vmem S1024x1024 .f32) (h2 : a2.IsWhole) (a3 : Memref sig .tc .vmem S1024x128 .f32) (h3 : a3.IsWhole) (a4 : Memref sig .tc .vmem S128x640 .f32) (h4 : a4.IsWhole) (a5 : Memref sig .tc .vmem S1024x640 .f32) (h5 : a5.IsWhole) (a6 : Memref sig .tc .vmem S1024x128 .f32) (h6 : a6.IsWhole) (hc : cond0_0 i)
    (x0 : Vec Ideal S1024x1024 .f32) (x1 : Vec Ideal S1024x128 .f32) (x2 : Vec Ideal S128x640 .f32) :
    sout0_A_0 c i a2 h2 a3 h3 a4 h4 a5 h5 a6 h6 hc x0 x1 x2 = mm x0 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero hz]
  simp only [View.readAt_eq_ld, h2.read_unread, h3.read_unread, View.ld_unit_zero (S := S1024x1024) hz, View.ld_unit_zero (S := S1024x128) hz]
  exact pay1_eq x0 x1

/-- At the start of a row the output block is that product times the column block of `W_o`. -/
theorem out_A (c : Dev nD) (i : grid0.Coords) (a2 : Memref sig .tc .vmem S1024x1024 .f32) (h2 : a2.IsWhole) (a3 : Memref sig .tc .vmem S1024x128 .f32) (h3 : a3.IsWhole) (a4 : Memref sig .tc .vmem S128x640 .f32) (h4 : a4.IsWhole) (a5 : Memref sig .tc .vmem S1024x640 .f32) (h5 : a5.IsWhole) (a6 : Memref sig .tc .vmem S1024x128 .f32) (h6 : a6.IsWhole) (hc : cond0_0 i)
    (x0 : Vec Ideal S1024x1024 .f32) (x1 : Vec Ideal S1024x128 .f32) (x2 : Vec Ideal S128x640 .f32) :
    out0_A_3 c i a2 h2 a3 h3 a4 h4 a5 h5 a6 h6 hc x0 x1 x2 = mm (mm x0 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero hz, View.readCov_unit_zero (S := S1024x128) _ hz]
  simp only [View.readAt_eq_ld, h2.read_unread, h3.read_unread, h4.read_unread, View.ld_unit_zero (S := S1024x1024) hz, View.ld_unit_zero (S := S1024x128) hz, View.ld_unit_zero (S := S128x640) hz]
  rw [pay1_eq, pay2_eq]

/-- Elsewhere in a row the output block is the carried scratch times the column block of `W_o`. -/
theorem out_B (c : Dev nD) (i : grid0.Coords) (a2 : Memref sig .tc .vmem S1024x1024 .f32) (h2 : a2.IsWhole) (a3 : Memref sig .tc .vmem S1024x128 .f32) (h3 : a3.IsWhole) (a4 : Memref sig .tc .vmem S128x640 .f32) (h4 : a4.IsWhole) (a5 : Memref sig .tc .vmem S1024x640 .f32) (h5 : a5.IsWhole) (a6 : Memref sig .tc .vmem S1024x128 .f32) (h6 : a6.IsWhole) (hc : ¬cond0_0 i)
    (x0 : Vec Ideal S1024x1024 .f32) (x1 : Vec Ideal S1024x128 .f32) (x2 : Vec Ideal S128x640 .f32) (xs : Vec Ideal S1024x128 .f32) :
    out0_B_3 c i a2 h2 a3 h3 a4 h4 a5 h5 a6 h6 hc x0 x1 x2 xs = mm xs x2 := by
  unfold out0_B_3
  rw [View.read_writes_eq_canon _ _ _ (cover0_B_3 c i a2 h2 a3 h3 a4 h4 a5 h5 a6 h6 hc x0 x1 x2 xs)]
  unfold kernelRun0_B
  dsimp only
  rw [View.canon_unit_zero hz]
  simp only [View.readAt_eq_ld, h6.read_unread, h4.read_unread, View.ld_unit_zero (S := S1024x128) hz, View.ld_unit_zero (S := S128x640) hz]
  exact pay2_eq xs x2

variable (m : (ℓ : Loc nD τ sig) → Buf (Elt Ideal) ℓ)

/-- The printed index maps over the 200 points: the row block is the point's quotient by 50, the column block its
    remainder. -/
theorem idx_facts : ∀ t : Fin cfg0.N, win0_0.index t (0 : Fin 2) = t.val / 50
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = t.val % 50
    ∧ win0_3.index t (0 : Fin 2) = t.val / 50
    ∧ win0_3.index t (1 : Fin 2) = t.val % 50 :=
  (by decide +kernel : ∀ t : Fin grid0.N, _)

/-- The three input blocks at a point, as plain arrays. -/
abbrev xb (c : Dev nD) (t : Fin cfg0.N) : Vec Ideal S1024x1024 .f32 := iblk m c 0 t
abbrev wdb (c : Dev nD) (t : Fin cfg0.N) : Vec Ideal S1024x128 .f32 := iblk m c 1 t
abbrev wob (c : Dev nD) (t : Fin cfg0.N) : Vec Ideal S128x640 .f32 := iblk m c 2 t

/-- The point's own rows of `X · W_d`. -/
def hOf (c : Dev nD) (t : Fin cfg0.N) : Vec Ideal S1024x128 .f32 := mm (xb m c t) (wdb m c t)

/-- Along a row the row block of `X` and `W_d` do not change, so neither does their product. -/
theorem hOf_step (c : Dev nD) (t t' : Fin cfg0.N) (h : t'.val = t.val + 1) (hB : ¬t'.val % 50 = 0) :
    hOf m c t' = hOf m c t := by
  obtain ⟨e0, e1, e2, e3, -⟩ := idx_facts t
  obtain ⟨e0', e1', e2', e3', -⟩ := idx_facts t'
  have ex : xb m c t' = xb m c t := by
    funext y
    show V m c main_v0 (((cfg0.win 0).blk t').view.emb y) = V m c main_v0 (((cfg0.win 0).blk t).view.emb y)
    refine congrArg (V m c main_v0) (funext fun a => Fin.ext ?_)
    match a with
    | ⟨0, _⟩ => show win0_0.index t' (0 : Fin 2) * 1024 + 1 * (y 0).val = win0_0.index t (0 : Fin 2) * 1024 + 1 * (y 0).val; omega
    | ⟨1, _⟩ => show win0_0.index t' (1 : Fin 2) * 1024 + 1 * (y 1).val = win0_0.index t (1 : Fin 2) * 1024 + 1 * (y 1).val; omega
  have ew : wdb m c t' = wdb m c t := by
    funext y
    show V m c main_arg1 (((cfg0.win 1).blk t').view.emb y) = V m c main_arg1 (((cfg0.win 1).blk t).view.emb y)
    refine congrArg (V m c main_arg1) (funext fun a => Fin.ext ?_)
    match a with
    | ⟨0, _⟩ => show win0_1.index t' (0 : Fin 2) * 1024 + 1 * (y 0).val = win0_1.index t (0 : Fin 2) * 1024 + 1 * (y 0).val; omega
    | ⟨1, _⟩ => show win0_1.index t' (1 : Fin 2) * 128 + 1 * (y 1).val = win0_1.index t (1 : Fin 2) * 128 + 1 * (y 1).val; omega
  unfold hOf
  rw [ex, ew]

/-- At the start of a row: the output block and the scratch from the point's own blocks. -/
theorem outsAt_A (c : Dev nD) (t : Fin cfg0.N) (h0 : t.val % 50 = 0) :
    outsAt0 m c t.val t.isLt = (mm (hOf m c t) (wob m c t), hOf m c t) := by
  refine (outsAt0_A m c t h0).trans ?_
  exact congrArg₂ Prod.mk
    (out_A c (grid0.coords t) (ms0_0 t) (hs0_0 t) (ms0_1 t) (hs0_1 t) (ms0_2 t) (hs0_2 t) (ms0_3 t) (hs0_3 t) scM0_0 (Memref.isWhole_whole _) ((hcond0_0 t).mpr h0) (xb m c t) (wdb m c t) (wob m c t))
    (scratch_A c (grid0.coords t) (ms0_0 t) (hs0_0 t) (ms0_1 t) (hs0_1 t) (ms0_2 t) (hs0_2 t) (ms0_3 t) (hs0_3 t) scM0_0 (Memref.isWhole_whole _) ((hcond0_0 t).mpr h0) (xb m c t) (wdb m c t) (wob m c t))

/-- Elsewhere in a row: the output block from the scratch the point before left, which is carried on. -/
theorem outsAt_B (c : Dev nD) (t : Fin cfg0.N) (h0 : ¬t.val % 50 = 0) :
    outsAt0 m c t.val t.isLt
      = (mm (outsAt0 m c (t.val - 1) (Nat.lt_of_le_of_lt (Nat.sub_le _ _) t.isLt)).2 (wob m c t),
         (outsAt0 m c (t.val - 1) (Nat.lt_of_le_of_lt (Nat.sub_le _ _) t.isLt)).2) := by
  refine (outsAt0_B m c t h0).trans ?_
  exact congrArg₂ Prod.mk
    (out_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (xb m c t) (wdb m c t) (wob m c t)
      (outsAt0 m c (t.val - 1) (Nat.lt_of_le_of_lt (Nat.sub_le _ _) t.isLt)).2)
    rfl

/-- After every point the scratch holds the point's own rows of `X · W_d` and the output block their product with the
    point's column block of `W_o`: by induction along the grid. -/
theorem outsAt_eq (c : Dev nD) : ∀ (n : ℕ) (h : n < cfg0.N),
    outsAt0 m c n h = (mm (hOf m c ⟨n, h⟩) (wob m c ⟨n, h⟩), hOf m c ⟨n, h⟩)
  | 0, h => outsAt_A m c ⟨0, h⟩ rfl
  | n + 1, h => by
    by_cases h0 : (n + 1) % 50 = 0
    · exact outsAt_A m c ⟨n + 1, h⟩ h0
    · have ih := outsAt_eq c n (Nat.lt_of_succ_lt h)
      rw [outsAt_B m c ⟨n + 1, h⟩ h0]
      show (mm (outsAt0 m c n _).2 _, (outsAt0 m c n _).2) = _
      rw [ih]
      show (mm (hOf m c ⟨n, _⟩) _, hOf m c ⟨n, _⟩) = _
      rw [hOf_step m c ⟨n, Nat.lt_of_succ_lt h⟩ ⟨n + 1, h⟩ rfl h0]

/-- What point `t` writes back is its block of `(X · W_d) · W_o`. -/
theorem flushed_eq (c : Dev nD) (t : Fin cfg0.N) :
    (dats m 0 c).flushed 3 t
      = ((cfg0.win 3).blk t).view.read (Elt Ideal) (mm (mm (V m c main_v0) (V m c main_arg1)) (V m c main_arg2)) := by
  show (cfg0.win 3).cut (grid0.coords t) ((dats m 0 c).after 3 t) = _
  rw [after0_3, outsAt_eq m c t.val t.isLt]
  obtain ⟨e0, e1, e2, e3, e4, e5, e6, e7⟩ := idx_facts t
  funext j
  show mm (mm (fun y => V m c main_v0 (((cfg0.win 0).blk t).view.emb y)) (fun y => V m c main_arg1 (((cfg0.win 1).blk t).view.emb y)))
      (fun y => V m c main_arg2 (((cfg0.win 2).blk t).view.emb y)) j
    = mm (mm (V m c main_v0) (V m c main_arg1)) (V m c main_arg2) (((cfg0.win 3).blk t).view.emb j)
  refine mm_congr _ _ _ _ _ _ (fun k => ?_) (fun k => ?_)
  · refine mm_congr _ _ _ _ _ _ (fun k' => ?_) (fun k' => ?_)
    · refine congrArg (V m c main_v0) (funext fun a => Fin.ext ?_)
      match a with
      | ⟨0, _⟩ => show win0_0.index t (0 : Fin 2) * 1024 + 1 * (j 0).val = win0_3.index t (0 : Fin 2) * 1024 + 1 * (j 0).val; omega
      | ⟨1, _⟩ => show win0_0.index t (1 : Fin 2) * 1024 + 1 * k'.val = k'.val; omega
    · refine congrArg (V m c main_arg1) (funext fun a => Fin.ext ?_)
      match a with
      | ⟨0, _⟩ => show win0_1.index t (0 : Fin 2) * 1024 + 1 * k'.val = k'.val; omega
      | ⟨1, _⟩ => show win0_1.index t (1 : Fin 2) * 128 + 1 * k.val = k.val; omega
  · refine congrArg (V m c main_arg2) (funext fun a => Fin.ext ?_)
    match a with
    | ⟨0, _⟩ => show win0_2.index t (0 : Fin 2) * 128 + 1 * k.val = k.val; omega
    | ⟨1, _⟩ => show win0_2.index t (1 : Fin 2) * 640 + 1 * (j 1).val = win0_3.index t (1 : Fin 2) * 640 + 1 * (j 1).val; omega

/-- An index of the logits is in point `t`'s block iff each coordinate is in the block's range on its axis. -/
theorem mem_blk (t : Fin cfg0.N) (i : S4096x32000.Idx) :
    i ∈ ((cfg0.win 3).blk t).view.set ↔ ∀ a : Fin 2, win0_3.index t a * S1024x640.size a ≤ (i a).val ∧ (i a).val < win0_3.index t a * S1024x640.size a + S1024x640.size a := by
  show i ∈ ((View.whole main_v1).slice (win0_3.rect t)).set ↔ _
  rw [View.set_slice_whole, Rect.mem_set_unit]
  exact Iff.rfl

/-- The 4 × 50 blocks tile the logits. -/
theorem cover (i : S4096x32000.Idx) :
    ∃ t : Fin cfg0.N, (cfg0.win 3).flush t = true ∧ i ∈ ((cfg0.win 3).blk t).view.set := by
  have hi0 : (i 0).val < 4096 := (i 0).isLt
  have hi1 : (i 1).val < 32000 := (i 1).isLt
  have hN : cfg0.N = 200 := N_0
  let t : Fin cfg0.N := ⟨(i 0).val / 1024 * 50 + (i 1).val / 640, by rw [hN]; omega⟩
  obtain ⟨e0, e1, e2, e3, e4, e5, e6, e7⟩ := idx_facts t
  have e6' : win0_3.index t (0 : Fin 2) = ((i 0).val / 1024 * 50 + (i 1).val / 640) / 50 := e6
  have e7' : win0_3.index t (1 : Fin 2) = ((i 0).val / 1024 * 50 + (i 1).val / 640) % 50 := e7
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 640 ≤ (i 1).val ∧ (i 1).val < win0_3.index t (1 : Fin 2) * 640 + 640; omega

/-- After the region the logits are `(X · W_d) · W_o` of the arrays the region found. -/
theorem final (c : Dev nD) :
    (dats m 0 c).arrAt 3 cfg0.N = mm (mm (V m c main_v0) (V m c main_arg1)) (V m c main_arg2) :=
  (dats m 0 c).arrAt_eq_of_cover 3 _ (fun t _ => flushed_eq m c t) cover

end Cert.ReferenceIdeal.Fused

end
-- ==== Proof.ReferenceRun.lean ====
/-
  The reference's whole run, read.

  @main is three segments: the activations are read as rows (`X`), the region leaves `(X · W_d) · W_o`, and the rows
  are read back in groups.  The result buffer ends at `Spec.logits` of the three argument arrays, which end as
  launched.
-/
import proofs.«103452_g2000605752815823_pallasbulk_1286_7_alg».proof.Proof.ReferenceFused
import Idealize.ShloMosaic.Lib.StableHlo.Run

set_option maxRecDepth 16384

noncomputable section

namespace Cert.ReferenceIdeal.Whole

open Idealize.ShloMosaic Idealize.ShloMosaic.TcCoe Idealize.ShloMosaic.Tactic
open Idealize.SL.Sem
open Idealize.ShloMosaic.Pipeline (Dat Cfg Window)
open Idealize.ShloMosaic.StableHlo
open Cert.ReferenceIdeal Cert.ReferenceIdeal.Gen Cert.Dense Cert.Spec

variable (m : (ℓ : Loc nD τ sig) → Buf (Elt Ideal) ℓ) (ρ : Dev nD → PrngReg)

/-- The region finds the activations read as rows. -/
theorem V_rows (c : Dev nD) :
    V m c main_v0 = shapeCast S4096x1024 (m ((c : Thread nD τ).loc main_arg0)) Facts₀.shapeCasts_S8x512x1024_S4096x1024 := by
  show StableHlo.after hostOps0 (fun b => m (c, b)) (Proc.devRef .tc main_v0) = _
  after_results
  rfl

/-- The region leaves the rows of logits. -/
theorem rows_out (c : Dev nD) :
    (dats m 0 c).arrAt 3 cfg0.N
      = mm (mm (shapeCast S4096x1024 (m ((c : Thread nD τ).loc main_arg0)) Facts₀.shapeCasts_S8x512x1024_S4096x1024)
          (m ((c : Thread nD τ).loc main_arg1))) (m ((c : Thread nD τ).loc main_arg2)) := by
  rw [Fused.final m c, V_rows, V_main_arg1, V_main_arg2]

/-- The result buffer ends at the logits of the argument arrays. -/
theorem tail_result (c : Dev nD) :
    Pipeline.afterTail₀ cfgs (dats m) 0 (V0 m) [hostOps1] c main_v2
      = logits Facts₀.shapeCasts_S8x512x1024_S4096x1024 Facts₀.shapeCasts_S4096x32000_S8x512x32000
        (m ((c : Thread nD τ).loc main_arg0)) (m ((c : Thread nD τ).loc main_arg1)) (m ((c : Thread nD τ).loc main_arg2)) := by
  unfold Pipeline.afterTail₀
  show StableHlo.after hostOps1 _ (Proc.devRef .tc main_v2) = _
  after_results
  have e := (Pipeline.withArrays_arr spec0 launch0.win.arr_inj c (V0 m c) (fun w => (dats m 0 c).arrAt w cfg0.N) 3).trans (rows_out m c)
  unfold logits
  rw [← e]
  rfl

/-- Every weakly fair execution of @main terminates, nothing faulting, with the result buffer at the logits of the
    argument arrays and the argument arrays as launched. -/
theorem run : θ_run defs (onTc (τ := τ) (main (F := Ideal))) ⟨m, fun _ => 0, ρ⟩ (fun r => ∀ c : Dev nD,
      r.2.mem ((c.tc : Thread nD τ).loc main_v2) = logits Facts₀.shapeCasts_S8x512x1024_S4096x1024 Facts₀.shapeCasts_S4096x32000_S8x512x32000
        (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v2 (Pipeline.mem_restRefs_of main_v2 (by decide) (by decide))).trans (tail_result m c),
     ((h c).2 main_arg0 (Pipeline.mem_restRefs_of main_arg0 (by decide) (by decide))).trans (W_main_arg0 m (dats m) c),
     ((h c).1 1).trans (((dats m 0 c).arrAt_in 1 rfl _).trans ((A_eq m c 1).trans (V_main_arg1 m c))),
     ((h c).1 2).trans (((dats m 0 c).arrAt_in 2 rfl _).trans ((A_eq m c 2).trans (V_main_arg2 m c)))⟩)
    (run_main m ρ)

end Cert.ReferenceIdeal.Whole

end
-- ==== Proof.lean ====
/-
  The kernel computes the logits of a factorized embedding, `o = (X · W_d) · W_o` with `X` the `4096` rows of the
  activations, in two regions: the bottleneck `h = X · W_d` by row blocks, then `o = h · W_o` by column blocks.  The
  reference computes the same two products fused in one region over (row block) × (column block), carrying the
  row block's `h` in scratch.  On the extended reals a change of float format is the identity and a matrix product
  into a zero accumulator is the plain sum of products, so both programs end with their result buffer at the one
  function `Spec.logits` of the argument arrays: the two products associated the same way, blocked differently.
  No law beyond "an entry of a product depends on one row and one column" is used, so the inputs' finiteness is
  never opened.
-/
import proofs.«103452_g2000605752815823_pallasbulk_1286_7_alg».proof.Defs
import proofs.«103452_g2000605752815823_pallasbulk_1286_7_alg».proof.Proof.Gen.Kernel
import proofs.«103452_g2000605752815823_pallasbulk_1286_7_alg».proof.Proof.Gen.Kernel.Frame
import proofs.«103452_g2000605752815823_pallasbulk_1286_7_alg».proof.Proof.Gen.KernelIdeal
import proofs.«103452_g2000605752815823_pallasbulk_1286_7_alg».proof.Proof.Gen.KernelIdeal.Frame
import proofs.«103452_g2000605752815823_pallasbulk_1286_7_alg».proof.Proof.Gen.ReferenceIdeal
import proofs.«103452_g2000605752815823_pallasbulk_1286_7_alg».proof.Proof.Gen.ReferenceIdeal.Frame
import proofs.«103452_g2000605752815823_pallasbulk_1286_7_alg».proof.Proof.Gen.Pre_finite_inputs
import proofs.«103452_g2000605752815823_pallasbulk_1286_7_alg».proof.Proof.KernelRun
import proofs.«103452_g2000605752815823_pallasbulk_1286_7_alg».proof.Proof.ReferenceRun

noncomputable section

namespace Cert.Proof

open Idealize.ShloMosaic Idealize.SL.Sem

theorem frame_k : @Cert.frame_Kernel Cert.Kernel.Gen.facts Cert.Pre_finite_inputs.Gen.facts :=
  fun m ρ _ => Cert.Kernel.Gen.frame m ρ
theorem frame_ki : @Cert.frame_KernelIdeal Cert.KernelIdeal.Gen.facts Cert.Pre_finite_inputs.Gen.facts :=
  fun m ρ _ => Cert.KernelIdeal.Gen.frame m ρ
theorem frame_ri : @Cert.frame_ReferenceIdeal Cert.ReferenceIdeal.Gen.facts Cert.Pre_finite_inputs.Gen.facts :=
  fun m ρ _ => Cert.ReferenceIdeal.Gen.frame m ρ

/-- Both runs end with the result at `Spec.logits` of arguments that agree. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Whole.run m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
